-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S32x1024 : Shape := ⟨2, ![32, 1024]⟩
abbrev S4096x32 : Shape := ⟨2, ![4096, 32]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  main_v18

def fn {F : FTy → Type} [FloatOps F] (main_arg0 : FVec F S16384x1024 .f32) (main_arg1 : FVec F S32x1024 .f32) (main_arg2 : FVec F S4096x32 .f32) (main_arg3 : FVec F S4096x32 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_v13 main_v16
-- ==== Kernel.lean ====
abbrev S16384x1024 : Shape := ⟨2, ![16384, 1024]⟩
abbrev S32x1024 : Shape := ⟨2, ![32, 1024]⟩
abbrev S4096x32 : Shape := ⟨2, ![4096, 32]⟩
abbrev S1024x4096 : Shape := ⟨2, ![1024, 4096]⟩
abbrev S16384x4096 : Shape := ⟨2, ![16384, 4096]⟩
abbrev S512x1024 : Shape := ⟨2, ![512, 1024]⟩
abbrev S512x4096 : Shape := ⟨2, ![512, 4096]⟩

abbrev nBuf : Space → Nat
  | .hbm => 9
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S32x1024, .f32⟩
  | .hbm, ⟨2, _⟩ => ⟨S4096x32, .f32⟩
  | .hbm, ⟨3, _⟩ => ⟨S4096x32, .f32⟩
  | .hbm, ⟨4, _⟩ => ⟨S4096x32, .f32⟩
  | .hbm, ⟨5, _⟩ => ⟨S4096x32, .f32⟩
  | .hbm, ⟨6, _⟩ => ⟨S1024x4096, .f32⟩
  | .hbm, ⟨7, _⟩ => ⟨S1024x4096, .bf16⟩
  | .hbm, ⟨8, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x4096, .f32⟩
  | .local _ .vmem, ⟨4, _⟩ => ⟨S512x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  dot_S32x1024_S4096x32_S1024x4096_0_1_1_0_n_n_wf : DotDims.WF S32x1024 S4096x32 S1024x4096 [0] [1] [1] [0] [] []
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

def dot_S32x1024_S4096x32_S1024x4096_0_1_1_0_n_n : DotDims S32x1024 S4096x32 S1024x4096 where
  lhsContracting := [0]
  rhsContracting := [1]
  lhsNonContracting := [1]
  rhsNonContracting := [0]
  lhsBatch := []
  rhsBatch := []
  wf := dot_S32x1024_S4096x32_S1024x4096_0_1_1_0_n_n_wf
def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S32x1024 : Shape := ⟨2, ![32, 1024]⟩
abbrev S4096x32 : Shape := ⟨2, ![4096, 32]⟩
abbrev S16384x32 : Shape := ⟨2, ![16384, 32]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32x1024, .f32⟩
  | .hbm, ⟨2, _⟩ => ⟨S4096x32, .f32⟩
  | .hbm, ⟨3, _⟩ => ⟨S4096x32, .f32⟩
  | .hbm, ⟨4, _⟩ => ⟨S16384x32, .f32⟩
  | .hbm, ⟨5, _⟩ => ⟨S4096x32, .f32⟩
  | .hbm, ⟨6, _⟩ => ⟨S4096x32, .f32⟩
  | .hbm, ⟨7, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S16384x1024_S32x1024_S16384x32_1_1_0_0_n_n_wf : DotDims.WF S16384x1024 S32x1024 S16384x32 [1] [1] [0] [0] [] []
  dot_S16384x32_S4096x32_S16384x4096_1_1_0_0_n_n_wf : DotDims.WF S16384x32 S4096x32 S16384x4096 [1] [1] [0] [0] [] []

variable [Facts₀]

def dot_S16384x1024_S32x1024_S16384x32_1_1_0_0_n_n : DotDims S16384x1024 S32x1024 S16384x32 where
  lhsContracting := [1]
  rhsContracting := [1]
  lhsNonContracting := [0]
  rhsNonContracting := [0]
  lhsBatch := []
  rhsBatch := []
  wf := dot_S16384x1024_S32x1024_S16384x32_1_1_0_0_n_n_wf
def dot_S16384x32_S4096x32_S16384x4096_1_1_0_0_n_n : DotDims S16384x32 S4096x32 S16384x4096 where
  lhsContracting := [1]
  rhsContracting := [1]
  lhsNonContracting := [0]
  rhsNonContracting := [0]
  lhsBatch := []
  rhsBatch := []
  wf := dot_S16384x32_S4096x32_S16384x4096_1_1_0_0_n_n_wf

class Facts : Prop extends Facts₀ where

variable [Facts]
-- ==== Proof.Interchange.lean ====
/-
  Interchanging two finite sums of real products, on the extended reals.

  For finitely many REAL numbers the iterated sum  Σ_k x_k · (Σ_h b_{h,k} · w_h)  equals
  Σ_h (Σ_k x_k · b_{h,k}) · w_h : distribute the outer factor over the inner sum, swap the two
  finite sums, and collect the factor w_h on the right. On the extended reals this needs every entry to be
  finite (distributivity fails at the infinities), so the statement assumes each entry is the
  image of a real number, does the algebra in ℝ and transports it along the coercion.
-/
import Mathlib.Data.EReal.Basic
import Mathlib.Algebra.BigOperators.Ring.Finset
import Mathlib.Algebra.BigOperators.Group.Finset.Basic
import Mathlib.Algebra.BigOperators.Group.Finset.Sigma
import Mathlib.Tactic.Ring

namespace Cert.Interchange

open Finset

/-- The coercion ℝ → EReal commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem sum_mul_isReal {ι : Type*} [Fintype ι] (f g : ι → EReal)
    (hf : ∀ i, ∃ r : ℝ, f i = r) (hg : ∀ i, ∃ r : ℝ, g i = r) :
    ∃ r : ℝ, ∑ i, f i * g i = r := by
  choose fr hfr using hf
  choose gr hgr using hg
  refine ⟨∑ i, fr i * gr i, ?_⟩
  rw [coe_sum]
  exact Finset.sum_congr rfl fun i _ => by rw [hfr, hgr, EReal.coe_mul]

/-- THE INTERCHANGE: with real entries, contracting `x` against the contraction of `b` with `w` is contracting
    the contraction of `x` with `b` against `w`. -/
theorem sum_mul_sum_comm {K H : Type*} [Fintype K] [Fintype H]
    (x : K → EReal) (b : H → K → EReal) (w : H → EReal)
    (hx : ∀ k, ∃ r : ℝ, x k = r) (hb : ∀ h k, ∃ r : ℝ, b h k = r) (hw : ∀ h, ∃ r : ℝ, w h = r) :
    ∑ k, x k * ∑ h, b h k * w h = ∑ h, (∑ k, x k * b h k) * w h := by
  choose xr hxr using hx
  choose br hbr using hb
  choose wr hwr using hw
  have hL : ∑ k, x k * ∑ h, b h k * w h = ((∑ k, xr k * ∑ h, br h k * wr h : ℝ) : EReal) := by
    rw [coe_sum]
    refine Finset.sum_congr rfl fun k _ => ?_
    rw [EReal.coe_mul, coe_sum, hxr]
    congr 1
    exact Finset.sum_congr rfl fun h _ => by rw [hbr, hwr, EReal.coe_mul]
  have hR : ∑ h, (∑ k, x k * b h k) * w h = ((∑ h, (∑ k, xr k * br h k) * wr h : ℝ) : EReal) := by
    rw [coe_sum]
    refine Finset.sum_congr rfl fun h _ => ?_
    rw [EReal.coe_mul, coe_sum, hwr]
    congr 1
    exact Finset.sum_congr rfl fun k _ => by rw [hxr, hbr, EReal.coe_mul]
  rw [hL, hR]
  congr 1
  simp only [Finset.mul_sum, Finset.sum_mul]
  rw [Finset.sum_comm]
  exact Finset.sum_congr rfl fun h _ => Finset.sum_congr rfl fun k _ => by ring

end Cert.Interchange
-- ==== Proof.Spec.lean ====
/-
  The result as a function of the four argument arrays, index by index, in its two arrangements.

  With x : [16384, 1024], basis : [32, 1024], phase, amp : [4096, 32] and the weight
  w(o, h) = amp(o, h) · cos(phase(o, h)), entry (t, o) of the result is

    * FUSED     Σ_k x(t, k) · (Σ_h basis(h, k) · w(o, h))     — the weights contracted with the basis first
                                                                (a [1024, 4096] matrix), then one product with x;
    * TWO-STEP  Σ_h (Σ_k x(t, k) · basis(h, k)) · w(o, h)     — x projected onto the 32 basis rows first,
                                                                then contracted with the weights.

  The two agree whenever every entry of the four arrays is a real number: the cosine of a real is real, so every
  factor is finite, and the finite sums interchange.
-/
import Idealize.ShloMosaic.PureOps.Ideal
import Idealize.ShloMosaic.Lib.ValueIdx
import proofs.«148207_j14946486190460_2_alg».proof.Proof.Interchange

noncomputable section

namespace Cert.Spec

open Idealize.ShloMosaic Idealize.ShloMosaic.ValueIdx

/-- Index types of the four arguments and the result. -/
abbrev XIdx := (⟨2, ![16384, 1024]⟩ : Shape).Idx
abbrev BIdx := (⟨2, ![32, 1024]⟩ : Shape).Idx
abbrev PIdx := (⟨2, ![4096, 32]⟩ : Shape).Idx
abbrev OIdx := (⟨2, ![16384, 4096]⟩ : Shape).Idx
abbrev WIdx := (⟨2, ![1024, 4096]⟩ : Shape).Idx

/-- Every entry of an array is (the image of) a real number. -/
def AllReal {ι : Type} (a : ι → EReal) : Prop := ∀ i, ∃ r : ℝ, a i = r

/-- The weight of harmonic `h` for output feature `o`: amplitude times the cosine of the phase. -/
def weight (phase amp : PIdx → EReal) (o : Fin 4096) (h : Fin 32) : EReal :=
  amp (ix2 o h) * Ideal.cos (phase (ix2 o h))

/-- The weights contracted with the basis: entry (k, o) of the [1024, 4096] matrix. -/
def mixed (basis : BIdx → EReal) (phase amp : PIdx → EReal) (k : Fin 1024) (o : Fin 4096) : EReal :=
  ∑ h : Fin 32, basis (ix2 h k) * weight phase amp o h

/-- FUSED: one product of x with the mixed matrix. -/
def fused (x : XIdx → EReal) (basis : BIdx → EReal) (phase amp : PIdx → EReal) : OIdx → EReal := fun i =>
  ∑ k : Fin 1024, x (ix2 (i 0) k) * mixed basis phase amp k (i 1)

/-- TWO-STEP: x projected onto the basis rows, then contracted with the weights. -/
def twoStep (x : XIdx → EReal) (basis : BIdx → EReal) (phase amp : PIdx → EReal) : OIdx → EReal := fun i =>
  ∑ h : Fin 32, (∑ k : Fin 1024, x (ix2 (i 0) k) * basis (ix2 h k)) * weight phase amp (i 1) h

/-- A weight built from real amplitude and phase is real. -/
theorem weight_isReal (phase amp : PIdx → EReal) (hp : AllReal phase) (ha : AllReal amp) (o : Fin 4096) (h : Fin 32) :
    ∃ r : ℝ, weight phase amp o h = r := by
  obtain ⟨p, hp'⟩ := hp (ix2 o h)
  obtain ⟨a, ha'⟩ := ha (ix2 o h)
  exact ⟨a * Real.cos p, by unfold weight; rw [hp', ha', Ideal.cos_coe, EReal.coe_mul]⟩

/-- On real arguments the two arrangements are one function. -/
theorem fused_eq_twoStep (x : XIdx → EReal) (basis : BIdx → EReal) (phase amp : PIdx → EReal)
    (hx : AllReal x) (hb : AllReal basis) (hp : AllReal phase) (ha : AllReal amp) :
    fused x basis phase amp = twoStep x basis phase amp := by
  funext i
  unfold fused twoStep mixed
  exact Cert.Interchange.sum_mul_sum_comm (fun k => x (ix2 (i 0) k)) (fun h k => basis (ix2 h k))
    (fun h => weight phase amp (i 1) h) (fun k => hx _) (fun h k => hb _) (fun h => weight_isReal phase amp hp ha _ _)

end Cert.Spec

end
-- ==== Proof.Finite.lean ====
/-
  From the precondition to "every entry of every argument is a real number".

  The precondition compares the absolute value of each entry of each of the four arrays with +∞ (strictly below),
  takes the conjunction over each array, and then the conjunction of the four. At the exact instance an absolute
  value |x| = max(x, -x) lies strictly below +∞ exactly when x is neither +∞ nor -∞, that is, when x is a real.
-/
import proofs.«148207_j14946486190460_2_alg».proof.Proof.Gen.Pre_finite_inputs
import proofs.«148207_j14946486190460_2_alg».proof.Proof.Spec
import Idealize.ShloMosaic.Lib.ReduceAll
import Idealize.ShloMosaic.Lib.ValueIdx
import Idealize.ShloMosaic.PureOps.Ideal

noncomputable section

namespace Cert.Pre_finite_inputs.Finite

open Cert.Pre_finite_inputs Cert.Pre_finite_inputs.Facts
open Idealize.ShloMosaic Idealize.ShloMosaic.ValueIdx Cert.Spec

/-- The single-precision word with all exponent bits set and no fraction denotes +∞. -/
theorem inf_word : Ideal.ofBits .f32 0x7F800000#32 = (⊤ : EReal) := by
  simp [Ideal.ofBits, Ideal.ieee]

/-- An extended real whose absolute value is strictly below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = r := by
  have h' : Ideal.cmp .olt (max x (-x)) (Ideal.ofBits .f32 0x7F800000#32) = 1#1 := h
  rw [inf_word] at h'
  have hlt : max x (-x) < ⊤ := by
    unfold Ideal.cmp at h'
    by_contra hn
    simp [hn] at h'
  induction x using EReal.rec with
  | bot => simp at hlt
  | coe r => exact ⟨r, rfl⟩
  | top => simp at hlt

instance : Subsingleton S_.Idx := ⟨fun a b => funext fun d => d.elim0⟩

/-- One array's share of the precondition: if the conjunction over all entries of "|x| < +∞" is true, every
    entry is a real. -/
theorem allReal_of_all {s : Shape} {axes : List (Fin s.rank)} (x : FVec Ideal s .f32) (bc : S_.BroadcastsInDim s (![] : Fin 0 → Fin s.rank))
    (red : s.ReducesTo axes S_) (hS : 0 < S_.numel) (init : IVec S_ 1)
    (h : Host.reduce IntOp.andi (cmpf (F := Ideal) (φ := .f32) .olt (Host.absf (F := Ideal) (φ := .f32) x)
      (broadcastInDim s ![] bc (constant (F := Ideal) S_ .f32 0x7F800000#32))) init red hS ix0 = 1#1) :
    AllReal x := fun i =>
  real_of_abs_lt_inf (x i) (Host.reduce_andi_all _ init red hS ix0 h i)

/-- THE PRECONDITION, READ: all four arrays hold real numbers only. -/
theorem allReal_of_pre (a0 : FVec Ideal S16384x1024 .f32) (a1 : FVec Ideal S32x1024 .f32) (a2 a3 : FVec Ideal S4096x32 .f32)
    (h : fn (F := Ideal) a0 a1 a2 a3 = fun _ => 1#1) :
    AllReal a0 ∧ AllReal a1 ∧ AllReal a2 ∧ AllReal a3 := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨allReal_of_all a0 _ _ _ _ h0', allReal_of_all a1 _ _ _ _ h1, allReal_of_all a2 _ _ _ _ h2,
    allReal_of_all a3 _ _ _ _ h3⟩

end Cert.Pre_finite_inputs.Finite

end
-- ==== Proof.RefValue.lean ====
/-
  The reference program's result, read index by index, is the TWO-STEP arrangement.

  The reference first contracts x with the basis over the 1024 input features (a [16384, 32] projection), forms the
  weights amp · cos(phase) elementwise, and then contracts the projection with the weights over the 32 harmonics.
  Reading its last stage at an index (t, o) gives a sum over h of the projection at (t, h) times the weight at (o, h);
  reading the projection at (t, h) gives the sum over k of x(t, k) · basis(h, k).
-/
import proofs.«148207_j14946486190460_2_alg».proof.Proof.Gen.ReferenceIdeal.Read
import proofs.«148207_j14946486190460_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Spec

/-- The row of x that the projection at (t, h) reads at contraction position k is (t, k). -/
theorem lidx_proj (i : S16384x4096.Idx) (h : Fin 32) (k : Fin 1024) :
    lidx_main_v0 (lidx_main_v3 i h) k = ix2 (i 0) k :=
  funext fun a => Fin.ext (by match a with | ⟨0, _⟩ => rfl | ⟨1, _⟩ => rfl)

/-- The basis entry that the projection at (t, h) reads at contraction position k is (h, k). -/
theorem ridx_proj (i : S16384x4096.Idx) (h : Fin 32) (k : Fin 1024) :
    ridx_main_v0 (lidx_main_v3 i h) k = ix2 h k :=
  funext fun a => Fin.ext (by match a with | ⟨0, _⟩ => rfl | ⟨1, _⟩ => rfl)

/-- The weight entry the last contraction reads for output (t, o) at harmonic h is (o, h). -/
theorem ridx_out (i : S16384x4096.Idx) (h : Fin 32) : ridx_main_v3 i h = ix2 (i 1) h :=
  funext fun a => Fin.ext (by match a with | ⟨0, _⟩ => rfl | ⟨1, _⟩ => rfl)

/-- The reference's last stage is the two-step arrangement of its four arguments. -/
theorem val_eq_twoStep (x : (⟨S16384x1024, .f32⟩ : BufTy).Contents (Elt Ideal)) (basis : (⟨S32x1024, .f32⟩ : BufTy).Contents (Elt Ideal))
    (phase amp : (⟨S4096x32, .f32⟩ : BufTy).Contents (Elt Ideal)) :
    val_main_v3 (F := Ideal) x basis phase amp = twoStep x basis phase amp := by
  funext i
  rw [val_main_v3_apply]
  unfold twoStep
  refine Finset.sum_congr rfl fun h _ => ?_
  rw [val_main_v0_apply, val_main_v2_apply, val_main_v1_apply, ridx_out]
  simp only [lidx_proj, ridx_proj, Ideal.mulf_def, Ideal.hostUnary_cos_def]
  rfl

end Cert.ReferenceIdeal.RefValue

end
-- ==== Proof.Payload.lean ====
/-
  What the kernel body computes from its two loaded blocks, entry by entry.

  The body loads a [512, 1024] block of x and the whole [1024, 4096] mixed matrix, narrows the x block's format
  (the identity on exact values), and multiplies the two into a zero accumulator. So entry (p, q) of the stored
  block is the sum over the 1024 contraction positions k of  x-block(p, k) · matrix(k, q).
-/
import proofs.«148207_j14946486190460_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-- Left operand, axis 0 (rows, kept): the output's row. -/
theorem lhs_0 (i : S512x4096.Idx) (s : dot_S512x1024_S1024x4096_S512x4096_1_0_0_1_n_n.contr.Idx) :
    (dot_S512x1024_S1024x4096_S512x4096_1_0_0_1_n_n.lhsIdx i s 0).val = (i 0).val := by
  unfold DotDims.lhsIdx
  rw [dif_neg (show ¬(0 : Fin S512x1024.rank) ∈ dot_S512x1024_S1024x4096_S512x4096_1_0_0_1_n_n.lhsBatch by decide),
    dif_pos (show (0 : Fin S512x1024.rank) ∈ dot_S512x1024_S1024x4096_S512x4096_1_0_0_1_n_n.lhsNonContracting by decide)]
  rfl
/-- Left operand, axis 1 (contracted): the contraction position. -/
theorem lhs_1 (i : S512x4096.Idx) (s : dot_S512x1024_S1024x4096_S512x4096_1_0_0_1_n_n.contr.Idx) :
    (dot_S512x1024_S1024x4096_S512x4096_1_0_0_1_n_n.lhsIdx i s 1).val = (s ⟨0, by decide⟩).val :=
  dot_S512x1024_S1024x4096_S512x4096_1_0_0_1_n_n.lhsIdx_val_of_single rfl i s
/-- Right operand, axis 0 (contracted): the contraction position. -/
theorem rhs_0 (i : S512x4096.Idx) (s : dot_S512x1024_S1024x4096_S512x4096_1_0_0_1_n_n.contr.Idx) :
    (dot_S512x1024_S1024x4096_S512x4096_1_0_0_1_n_n.rhsIdx i s 0).val = (s ⟨0, by decide⟩).val :=
  dot_S512x1024_S1024x4096_S512x4096_1_0_0_1_n_n.rhsIdx_val_of_single rfl i s
/-- Right operand, axis 1 (columns, kept): the output's column. -/
theorem rhs_1 (i : S512x4096.Idx) (s : dot_S512x1024_S1024x4096_S512x4096_1_0_0_1_n_n.contr.Idx) :
    (dot_S512x1024_S1024x4096_S512x4096_1_0_0_1_n_n.rhsIdx i s 1).val = (i 1).val := by
  unfold DotDims.rhsIdx
  rw [dif_neg (show ¬(1 : Fin S1024x4096.rank) ∈ dot_S512x1024_S1024x4096_S512x4096_1_0_0_1_n_n.rhsBatch by decide),
    dif_pos (show (1 : Fin S1024x4096.rank) ∈ dot_S512x1024_S1024x4096_S512x4096_1_0_0_1_n_n.rhsNonContracting by decide)]
  rfl

/-- Entry (p, q) of the stored block is the row-by-column product of the two loaded blocks. -/
theorem pay_apply (x0 : Vec Ideal S512x1024 .f32) (x1 : Vec Ideal S1024x4096 .bf16) (p : Fin 512) (q : Fin 4096) :
    k0_pay1 (F := Ideal) x0 x1 (ix2 p q) = ∑ k : Fin 1024, x0 (ix2 p k) * x1 (ix2 k q) := by
  unfold k0_pay1
  rw [shapeCast_self]
  refine (Ideal.matmul_constant_zero_apply (φ₁ := .bf16) (φ₂ := .bf16) dot_S512x1024_S1024x4096_S512x4096_1_0_0_1_n_n none
    (truncf .bf16 x0 bitsLt_bf16_f32) x1 (ix2 p q)).trans ?_
  rw [← Equiv.sum_comp (contrEquiv1 dot_S512x1024_S1024x4096_S512x4096_1_0_0_1_n_n 1024 rfl rfl).symm]
  refine Finset.sum_congr rfl fun k _ => ?_
  have hk := contrEquiv1_symm_val dot_S512x1024_S1024x4096_S512x4096_1_0_0_1_n_n 1024 rfl rfl k
  have el : dot_S512x1024_S1024x4096_S512x4096_1_0_0_1_n_n.lhsIdx (ix2 p q)
      ((contrEquiv1 dot_S512x1024_S1024x4096_S512x4096_1_0_0_1_n_n 1024 rfl rfl).symm k) = ix2 p k :=
    funext fun a => Fin.ext (by
      match a with
      | ⟨0, _⟩ => exact lhs_0 _ _
      | ⟨1, _⟩ => exact (lhs_1 _ _).trans hk)
  have er : dot_S512x1024_S1024x4096_S512x4096_1_0_0_1_n_n.rhsIdx (ix2 p q)
      ((contrEquiv1 dot_S512x1024_S1024x4096_S512x4096_1_0_0_1_n_n 1024 rfl rfl).symm k) = ix2 k q :=
    funext fun a => Fin.ext (by
      match a with
      | ⟨0, _⟩ => exact (rhs_0 _ _).trans hk
      | ⟨1, _⟩ => exact rhs_1 _ _)
  rw [el, er]
  rfl

end Cert.KernelIdeal.Payload

end
-- ==== Proof.HostPrefix.lean ====
/-
  The [1024, 4096] matrix the kernel's second window stages, as the region finds it.

  Before the region the program takes the cosine of the phases, multiplies by the amplitudes, contracts the basis
  (over its 32 rows) with that product (over its 32 columns), and narrows the format (the identity on exact values).
  Entry (k, o) of the result is therefore the sum over the 32 harmonics h of  basis(h, k) · amp(o, h) · cos(phase(o, h)):
  the mixed matrix of the specification.
-/
import proofs.«148207_j14946486190460_2_alg».proof.Proof.Gen.KernelIdeal.Frame
import proofs.«148207_j14946486190460_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HostPrefix

open Cert.KernelIdeal Cert.KernelIdeal.Gen
open Idealize.ShloMosaic Idealize.ShloMosaic.TcCoe Idealize.SL.Sem Idealize.ShloMosaic.StableHlo
open Idealize.ShloMosaic.ValueIdx Cert.Spec

/-- Left operand (the basis), axis 0 (contracted): the harmonic. -/
theorem lhs_0 (i : S1024x4096.Idx) (s : dot_S32x1024_S4096x32_S1024x4096_0_1_1_0_n_n.contr.Idx) :
    (dot_S32x1024_S4096x32_S1024x4096_0_1_1_0_n_n.lhsIdx i s 0).val = (s ⟨0, by decide⟩).val :=
  dot_S32x1024_S4096x32_S1024x4096_0_1_1_0_n_n.lhsIdx_val_of_single rfl i s
/-- Left operand (the basis), axis 1 (kept): the output's row. -/
theorem lhs_1 (i : S1024x4096.Idx) (s : dot_S32x1024_S4096x32_S1024x4096_0_1_1_0_n_n.contr.Idx) :
    (dot_S32x1024_S4096x32_S1024x4096_0_1_1_0_n_n.lhsIdx i s 1).val = (i 0).val := by
  unfold DotDims.lhsIdx
  rw [dif_neg (show ¬(1 : Fin S32x1024.rank) ∈ dot_S32x1024_S4096x32_S1024x4096_0_1_1_0_n_n.lhsBatch by decide),
    dif_pos (show (1 : Fin S32x1024.rank) ∈ dot_S32x1024_S4096x32_S1024x4096_0_1_1_0_n_n.lhsNonContracting by decide)]
  rfl
/-- Right operand (the weights), axis 0 (kept): the output's column. -/
theorem rhs_0 (i : S1024x4096.Idx) (s : dot_S32x1024_S4096x32_S1024x4096_0_1_1_0_n_n.contr.Idx) :
    (dot_S32x1024_S4096x32_S1024x4096_0_1_1_0_n_n.rhsIdx i s 0).val = (i 1).val := by
  unfold DotDims.rhsIdx
  rw [dif_neg (show ¬(0 : Fin S4096x32.rank) ∈ dot_S32x1024_S4096x32_S1024x4096_0_1_1_0_n_n.rhsBatch by decide),
    dif_pos (show (0 : Fin S4096x32.rank) ∈ dot_S32x1024_S4096x32_S1024x4096_0_1_1_0_n_n.rhsNonContracting by decide)]
  rfl
/-- Right operand (the weights), axis 1 (contracted): the harmonic. -/
theorem rhs_1 (i : S1024x4096.Idx) (s : dot_S32x1024_S4096x32_S1024x4096_0_1_1_0_n_n.contr.Idx) :
    (dot_S32x1024_S4096x32_S1024x4096_0_1_1_0_n_n.rhsIdx i s 1).val = (s ⟨0, by decide⟩).val :=
  dot_S32x1024_S4096x32_S1024x4096_0_1_1_0_n_n.rhsIdx_val_of_single rfl i s

/-- The host contraction of the basis with the weights, read at (k, o): the mixed matrix. -/
theorem dot_apply (basis : FVec Ideal S32x1024 .f32) (phase amp : FVec Ideal S4096x32 .f32) (k : Fin 1024) (o : Fin 4096) :
    Host.dotGeneral (F := Ideal) (φ₁ := .f32) (φ₂ := .f32) dot_S32x1024_S4096x32_S1024x4096_0_1_1_0_n_n none basis
        (mulf (F := Ideal) (φ := .f32) amp (Host.cos (F := Ideal) (φ := .f32) phase)) (ix2 k o)
      = mixed basis phase amp k o := by
  simp only [Host.dotGeneral]
  rw [Ideal.dotGeneral_apply, ← Equiv.sum_comp (contrEquiv1 dot_S32x1024_S4096x32_S1024x4096_0_1_1_0_n_n 32 rfl rfl).symm]
  unfold mixed
  refine Finset.sum_congr rfl fun h _ => ?_
  have hh := contrEquiv1_symm_val dot_S32x1024_S4096x32_S1024x4096_0_1_1_0_n_n 32 rfl rfl h
  have el : dot_S32x1024_S4096x32_S1024x4096_0_1_1_0_n_n.lhsIdx (ix2 k o)
      ((contrEquiv1 dot_S32x1024_S4096x32_S1024x4096_0_1_1_0_n_n 32 rfl rfl).symm h) = ix2 h k :=
    funext fun a => Fin.ext (by
      match a with
      | ⟨0, _⟩ => exact (lhs_0 _ _).trans hh
      | ⟨1, _⟩ => exact lhs_1 _ _)
  have er : dot_S32x1024_S4096x32_S1024x4096_0_1_1_0_n_n.rhsIdx (ix2 k o)
      ((contrEquiv1 dot_S32x1024_S4096x32_S1024x4096_0_1_1_0_n_n 32 rfl rfl).symm h) = ix2 o h :=
    funext fun a => Fin.ext (by
      match a with
      | ⟨0, _⟩ => exact rhs_0 _ _
      | ⟨1, _⟩ => exact (rhs_1 _ _).trans hh)
  rw [el, er]
  rfl

variable (m : (ℓ : Loc nD τ sig) → Buf (Elt Ideal) ℓ)

/-- The staged matrix as the region finds it: the host operations' composed term of the arguments. -/
theorem V_matrix (c : Dev nD) :
    (V m c main_call0_v3 : S1024x4096.Idx → EReal)
      = truncf (F := Ideal) (φ := .f32) .bf16 (Host.dotGeneral (F := Ideal) (φ₁ := .f32) (φ₂ := .f32) dot_S32x1024_S4096x32_S1024x4096_0_1_1_0_n_n none
          (m ((c : Thread nD τ).loc main_arg1))
          (mulf (F := Ideal) (φ := .f32) (m ((c : Thread nD τ).loc main_arg3))
            (Host.cos (F := Ideal) (φ := .f32) (m ((c : Thread nD τ).loc main_arg2))))) bitsLt_bf16_f32 := by
  dsimp only [Gen.V, Gen.hostOps0]
  after_results
  rfl

/-- Entry (k, o) of the staged matrix is the mixed matrix of the arguments. -/
theorem V_matrix_apply (c : Dev nD) (k : Fin 1024) (o : Fin 4096) :
    (V m c main_call0_v3 : S1024x4096.Idx → EReal) (ix2 k o)
      = mixed (m ((c : Thread nD τ).loc main_arg1)) (m ((c : Thread nD τ).loc main_arg2)) (m ((c : Thread nD τ).loc main_arg3)) k o := by
  rw [V_matrix]
  exact dot_apply (m ((c : Thread nD τ).loc main_arg1)) (m ((c : Thread nD τ).loc main_arg2)) (m ((c : Thread nD τ).loc main_arg3)) k o

end Cert.KernelIdeal.HostPrefix

end
-- ==== Proof.KernelValue.lean ====
/-
  The kernel's result array as one function of the four arguments: the FUSED arrangement.

  The grid has 32 points; point t stages rows 512·t … 512·t + 511 of x (all 1024 columns), the whole [1024, 4096]
  mixed matrix, and writes back rows 512·t … 512·t + 511 of the result (all 4096 columns). Entry (p, q) of the block
  written at point t is the product of row p of the x block with column q of the matrix, that is, entry
  (512·t + p, q) of the fused arrangement. The 32 row blocks tile the result, so the whole array ends holding it.
-/
import proofs.«148207_j14946486190460_2_alg».proof.Proof.Gen.KernelIdeal.Value
import proofs.«148207_j14946486190460_2_alg».proof.Proof.Payload
import proofs.«148207_j14946486190460_2_alg».proof.Proof.HostPrefix
import proofs.«148207_j14946486190460_2_alg».proof.Proof.Spec
import Idealize.ShloMosaic.Lib.Pipeline.Value
import Idealize.ShloMosaic.Lib.ValueIdx
import Idealize.ShloMosaic.Lib.Tactic

noncomputable section

namespace Cert.KernelIdeal.KernelValue

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx Cert.Spec

variable (m : (ℓ : Loc nD τ sig) → Buf (Elt Ideal) ℓ) (ρ : Dev nD → PrngReg)

theorem hz : (![0, 0] : Fin 2 → Nat) = fun _ => 0 := funext fun a => by fin_cases a <;> rfl

/-- The block indices over the grid: x and the result move down one row block per point, the matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the x block at point t is entry (512·t + p, k) of x. -/
theorem xblk_apply (c : Dev nD) (t : Fin cfg0.N) (p : Fin 512) (k : Fin 1024) (r : Fin 16384) (hr : r.val = t.val * 512 + p.val) :
    (iblk m c 0 t : Vec Ideal S512x1024 .f32) (ix2 p k)
      = (m ((c : Thread nD τ).loc main_arg0) : S16384x1024.Idx → EReal) (ix2 r k) := by
  obtain ⟨e0, e1, -⟩ := idx_facts t
  unfold iblk
  rw [View.read_apply]
  show V m c main_arg0 _ = _
  rw [V_main_arg0]
  congr 1
  funext a; apply Fin.ext
  match a with
  | ⟨0, _⟩ => show win0_0.index t 0 * 512 + 1 * p.val = r.val; rw [e0, hr]; omega
  | ⟨1, _⟩ => show win0_0.index t 1 * 1024 + 1 * k.val = k.val; rw [e1]; omega

/-- The matrix block at every point is the whole matrix. -/
theorem wblk_apply (c : Dev nD) (t : Fin cfg0.N) (k : Fin 1024) (q : Fin 4096) :
    (iblk m c 1 t : Vec Ideal S1024x4096 .bf16) (ix2 k q) = (V m c main_call0_v3 : S1024x4096.Idx → EReal) (ix2 k q) := by
  obtain ⟨-, -, e2, e3, -⟩ := idx_facts t
  unfold iblk
  rw [View.read_apply]
  show V m c main_call0_v3 _ = _
  congr 1
  funext a; apply Fin.ext
  match a with
  | ⟨0, _⟩ => show win0_1.index t 0 * 1024 + 1 * k.val = k.val; rw [e2]; omega
  | ⟨1, _⟩ => show win0_1.index t 1 * 4096 + 1 * q.val = q.val; rw [e3]; omega

/-- Entry j of the body's stored block, when row (j 0) of the first loaded block is row r of an array X and the second
    loaded block agrees with an array W along column (j 1): the product of that row of X with that column of W. -/
theorem entry_eq (X : S16384x1024.Idx → EReal) (W : S1024x4096.Idx → EReal)
    (x0 : Vec Ideal S512x1024 .f32) (x1 : Vec Ideal S1024x4096 .bf16) (j : S512x4096.Idx) (r : Fin 16384)
    (h0 : ∀ k : Fin 1024, x0 (ix2 (j 0) k) = X (ix2 r k)) (h1 : ∀ k : Fin 1024, x1 (ix2 k (j 1)) = W (ix2 k (j 1))) :
    k0_pay1 (F := Ideal) x0 x1 j = ∑ k : Fin 1024, X (ix2 r k) * W (ix2 k (j 1)) := by
  refine (congrArg (k0_pay1 (F := Ideal) x0 x1) (eq_ix2 j)).trans ((Payload.pay_apply x0 x1 (j 0) (j 1)).trans ?_)
  exact Finset.sum_congr rfl fun k _ => by rw [h0 k, h1 k]

/-- The result array: the fused arrangement of the four arguments as launched. -/
abbrev result (c : Dev nD) : S16384x4096.Idx → EReal :=
  fused (m ((c : Thread nD τ).loc main_arg0)) (m ((c : Thread nD τ).loc main_arg1))
    (m ((c : Thread nD τ).loc main_arg2)) (m ((c : Thread nD τ).loc main_arg3))

/-- WHAT POINT t WRITES BACK is block t of the fused arrangement. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz]
  simp only [View.ld_unit_zero (S := S512x1024) hz, View.ld_unit_zero (S := S1024x4096) hz]
  funext j
  obtain ⟨e0, e1, e2, e3, e4, e5⟩ := idx_facts t
  show k0_pay1 (iblk m c 0 t) (iblk m c 1 t) j = result m c (((cfg0.win 2).blk t).view.emb j)
  have i0 : ((((cfg0.win 2).blk t).view.emb j) 0).val = t.val * 512 + (j 0).val := by
    show win0_2.index t 0 * 512 + 1 * (j 0).val = _
    rw [e4]; omega
  have i1 : (((cfg0.win 2).blk t).view.emb j) 1 = j 1 := Fin.ext (by
    show win0_2.index t 1 * 4096 + 1 * (j 1).val = (j 1).val
    rw [e5]; omega)
  refine (entry_eq (m ((c : Thread nD τ).loc main_arg0)) (V m c main_call0_v3) (iblk m c 0 t) (iblk m c 1 t) j
    ((((cfg0.win 2).blk t).view.emb j) 0) (fun k => xblk_apply m c t (j 0) k _ i0) (fun k => wblk_apply m c t k (j 1))).trans ?_
  show _ = ∑ k : Fin 1024, _ * mixed _ _ _ k ((((cfg0.win 2).blk t).view.emb j) 1)
  refine Finset.sum_congr rfl fun k _ => ?_
  congr 1
  exact (HostPrefix.V_matrix_apply m c k (j 1)).trans
    (congrArg (mixed (m ((c : Thread nD τ).loc main_arg1)) (m ((c : Thread nD τ).loc main_arg2))
      (m ((c : Thread nD τ).loc main_arg3)) k) i1.symm)

/-- An index of the result lies in point t's block iff each coordinate lies in the block's range on its axis. -/
theorem mem_blk (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v0).slice (win0_2.rect t)).set ↔ _
  rw [View.set_slice_whole, Rect.mem_set_unit]
  exact Iff.rfl

/-- THE COVER: row r of the result lies in the block of point r / 512. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t 0 * 512 ≤ (i 0).val ∧ (i 0).val < win0_2.index t 0 * 512 + 512
    rw [e4, ht]; omega
  | ⟨1, _⟩ =>
    show win0_2.index t 1 * 4096 ≤ (i 1).val ∧ (i 1).val < win0_2.index t 1 * 4096 + 4096
    rw [e5]; omega

/-- THE ARRAY after the run is the fused arrangement of the arguments. -/
theorem final (c : Dev nD) : (dats m 0 c).arrAt 2 cfg0.N = result m c :=
  (dats m 0 c).arrAt_eq_of_cover 2 (result m c) (fun t _ => flushed_eq m c t) cover

/-- The kernel's run, read: the result array at the fused arrangement, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.lean ====
/-
  The certificate: a layer that multiplies x by (amp · cos(phase)) · basis, computed two ways.

  With x : [16384, 1024], basis : [32, 1024], phase, amp : [4096, 32] and the weight w(o, h) = amp(o, h) · cos(phase(o, h)):

    * the kernel forms the [1024, 4096] matrix  M(k, o) = Σ_h basis(h, k) · w(o, h)  on the host, and then one tiled
      product writes  out(t, o) = Σ_k x(t, k) · M(k, o)  (32 row blocks of 512 rows each, the matrix resident);
    * the reference projects  r(t, h) = Σ_k x(t, k) · basis(h, k)  and then contracts  out(t, o) = Σ_h r(t, h) · w(o, h).

  On exact values the format changes are the identity, so the two results differ only in the order of two finite sums.
  Under the precondition every entry of the four arguments is a real number, the cosine of a real is real, and for
  reals  Σ_k x_k · (Σ_h b_{h,k} · w_h) = Σ_h (Σ_k x_k · b_{h,k}) · w_h  by distributing and swapping the sums. That is the
  algebraic claim. The three frame claims are the programs' runs with the results dropped, and the idealization rewrote
  nothing, so the preservation claim is trivial.
-/
import proofs.«148207_j14946486190460_2_alg».proof.Defs
import proofs.«148207_j14946486190460_2_alg».proof.Proof.Gen.Kernel
import proofs.«148207_j14946486190460_2_alg».proof.Proof.Gen.Kernel.Skeleton
import proofs.«148207_j14946486190460_2_alg».proof.Proof.Gen.Kernel.Launch
import proofs.«148207_j14946486190460_2_alg».proof.Proof.Gen.Kernel.Points
import proofs.«148207_j14946486190460_2_alg».proof.Proof.Gen.Kernel.Frame
import proofs.«148207_j14946486190460_2_alg».proof.Proof.Gen.KernelIdeal
import proofs.«148207_j14946486190460_2_alg».proof.Proof.Gen.KernelIdeal.Skeleton
import proofs.«148207_j14946486190460_2_alg».proof.Proof.Gen.KernelIdeal.Launch
import proofs.«148207_j14946486190460_2_alg».proof.Proof.Gen.KernelIdeal.Points
import proofs.«148207_j14946486190460_2_alg».proof.Proof.Gen.KernelIdeal.Frame
import proofs.«148207_j14946486190460_2_alg».proof.Proof.Gen.ReferenceIdeal
import proofs.«148207_j14946486190460_2_alg».proof.Proof.Gen.KernelIdeal.Value
import proofs.«148207_j14946486190460_2_alg».proof.Proof.Gen.ReferenceIdeal.Run
import proofs.«148207_j14946486190460_2_alg».proof.Proof.Gen.ReferenceIdeal.Read
import proofs.«148207_j14946486190460_2_alg».proof.Proof.Gen.Pre_finite_inputs
import proofs.«148207_j14946486190460_2_alg».proof.Proof.Spec
import proofs.«148207_j14946486190460_2_alg».proof.Proof.Finite
import proofs.«148207_j14946486190460_2_alg».proof.Proof.RefValue
import proofs.«148207_j14946486190460_2_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same result array: the kernel's is the fused arrangement of its arguments, the
    reference's the two-step arrangement of arguments that agree with them, and on real arguments — which the
    precondition gives — the two arrangements are one function. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.val_eq_twoStep,
    (hagree c).1, (hagree c).2.1, (hagree c).2.2.1, (hagree c).2.2.2]
  obtain ⟨h0, h1, h2, h3⟩ := Cert.Pre_finite_inputs.Finite.allReal_of_pre _ _ _ _ (hpre c)
  exact (Cert.Spec.fused_eq_twoStep _ _ _ _ h0 h1 h2 h3).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
